-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x16x16 : Shape := ⟨4, ![4096, 16, 16, 16]⟩
abbrev S1000x16x16x16 : Shape := ⟨4, ![1000, 16, 16, 16]⟩
abbrev S_ : Shape := ⟨0, ![]⟩

class Facts : Prop where
  bcast_S_S4096x16x16x16 : S_.BroadcastsInDim S4096x16x16x16 (![] : Fin 0 → Fin S4096x16x16x16.rank)
  reducesTo_S4096x16x16x16_S_d0_1_2_3 : S4096x16x16x16.ReducesTo [0, 1, 2, 3] S_
  h_S_ : 0 < S_.numel
  bcast_S_S1000x16x16x16 : S_.BroadcastsInDim S1000x16x16x16 (![] : Fin 0 → Fin S1000x16x16x16.rank)
  reducesTo_S1000x16x16x16_S_d0_1_2_3 : S1000x16x16x16.ReducesTo [0, 1, 2, 3] S_

variable [Facts]

def fn {F : FTy → Type} [FloatOps F] (main_arg0 : FVec F S4096x16x16x16 .f32) (main_arg1 : FVec F S1000x16x16x16 .f32) : IVec S_ 1 :=
  let main_v0 : FVec F S4096x16x16x16 .f32 := Host.absf main_arg0
  let main_cst : FVec F S_ .f32 := constant S_ .f32 0x7F800000#32
  let main_v1 : FVec F S4096x16x16x16 .f32 := broadcastInDim S4096x16x16x16 ![] bcast_S_S4096x16x16x16 main_cst
  let main_v2 : IVec S4096x16x16x16 1 := cmpf .olt main_v0 main_v1
  let main_c : IVec S_ 1 := constantI S_ 1 1#1
  let main_v3 : IVec S_ 1 := (fun x v => Host.reduce IntOp.andi x v reducesTo_S4096x16x16x16_S_d0_1_2_3 h_S_) main_v2 main_c
  let main_v4 : FVec F S1000x16x16x16 .f32 := Host.absf main_arg1
  let main_cst_0 : FVec F S_ .f32 := constant S_ .f32 0x7F800000#32
  let main_v5 : FVec F S1000x16x16x16 .f32 := broadcastInDim S1000x16x16x16 ![] bcast_S_S1000x16x16x16 main_cst_0
  let main_v6 : IVec S1000x16x16x16 1 := cmpf .olt main_v4 main_v5
  let main_c_1 : IVec S_ 1 := constantI S_ 1 1#1
  let main_v7 : IVec S_ 1 := (fun x v => Host.reduce IntOp.andi x v reducesTo_S1000x16x16x16_S_d0_1_2_3 h_S_) main_v6 main_c_1
  let main_v8 : IVec S_ 1 := andi main_v3 main_v7
  main_v8
-- ==== Kernel.lean ====
abbrev S4096x16x16x16 : Shape := ⟨4, ![4096, 16, 16, 16]⟩
abbrev S1000x16x16x16 : Shape := ⟨4, ![1000, 16, 16, 16]⟩
abbrev S4096x4096 : Shape := ⟨2, ![4096, 4096]⟩
abbrev S1000x4096 : Shape := ⟨2, ![1000, 4096]⟩
abbrev S_ : Shape := ⟨0, ![]⟩
abbrev S1024x4096 : Shape := ⟨2, ![1024, 4096]⟩
abbrev S4096x1024 : Shape := ⟨2, ![4096, 1024]⟩
abbrev S512x4096 : Shape := ⟨2, ![512, 4096]⟩
abbrev S512x1024 : Shape := ⟨2, ![512, 1024]⟩
abbrev S4096x1000 : Shape := ⟨2, ![4096, 1000]⟩

abbrev nBuf : Space → Nat
  | .hbm => 9
  | .vmem => 5
  | .smem => 0
  | _ => 0

abbrev bufTy : (tb : Table) → Fin (tcTables nBuf tb) → BufTy
  | .hbm, ⟨0, _⟩ => ⟨S4096x16x16x16, .f32⟩
  | .hbm, ⟨1, _⟩ => ⟨S1000x16x16x16, .f32⟩
  | .hbm, ⟨2, _⟩ => ⟨S4096x4096, .f32⟩
  | .hbm, ⟨3, _⟩ => ⟨S1000x4096, .f32⟩
  | .hbm, ⟨4, _⟩ => ⟨S_, .i32⟩
  | .hbm, ⟨5, _⟩ => ⟨S_, .f32⟩
  | .hbm, ⟨6, _⟩ => ⟨S1024x4096, .f32⟩
  | .hbm, ⟨7, _⟩ => ⟨S4096x1024, .f32⟩
  | .hbm, ⟨8, _⟩ => ⟨S4096x1000, .f32⟩
  | .local _ .vmem, ⟨0, _⟩ => ⟨S512x4096, .f32⟩
  | .local _ .vmem, ⟨1, _⟩ => ⟨S512x4096, .f32⟩
  | .local _ .vmem, ⟨2, _⟩ => ⟨S1024x4096, .f32⟩
  | .local _ .vmem, ⟨3, _⟩ => ⟨S512x1024, .f32⟩
  | .local _ .vmem, ⟨4, _⟩ => ⟨S512x1024, .f32⟩
  | _, _ => ⟨S4096x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x16x16x16_S4096x4096 : S4096x16x16x16.ShapeCasts S4096x4096
  shapeCasts_S1000x16x16x16_S1000x4096 : S1000x16x16x16.ShapeCasts S1000x4096
  pads_S1000x4096_S1024x4096_0240_000 : S1000x4096.Pads (![0, 0] : Fin 2 → Nat) ![24, 0] ![0, 0] S1024x4096
  h_S_ : 0 < S_.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  slices_S4096x1024_S4096x1000_0_0 : S4096x1024.Slices ![0, 0] S4096x1000
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16x16x16 : Shape := ⟨4, ![4096, 16, 16, 16]⟩
abbrev S1000x16x16x16 : Shape := ⟨4, ![1000, 16, 16, 16]⟩
abbrev S4096x4096 : Shape := ⟨2, ![4096, 4096]⟩
abbrev S1000x4096 : Shape := ⟨2, ![1000, 4096]⟩
abbrev S4096x1000 : Shape := ⟨2, ![4096, 1000]⟩

abbrev nBuf : Space → Nat
  | .hbm => 6
  | .vmem => 0
  | .smem => 0
  | _ => 0

abbrev bufTy : (tb : Table) → Fin (tcTables nBuf tb) → BufTy
  | .hbm, ⟨0, _⟩ => ⟨S4096x16x16x16, .f32⟩
  | .hbm, ⟨1, _⟩ => ⟨S1000x16x16x16, .f32⟩
  | .hbm, ⟨2, _⟩ => ⟨S4096x4096, .f32⟩
  | .hbm, ⟨3, _⟩ => ⟨S1000x4096, .f32⟩
  | .hbm, ⟨4, _⟩ => ⟨S4096x1000, .f32⟩
  | .hbm, ⟨5, _⟩ => ⟨S4096x1000, .f32⟩
  | _, _ => ⟨S4096x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S4096x16x16x16_S4096x4096 : S4096x16x16x16.ShapeCasts S4096x4096
  shapeCasts_S1000x16x16x16_S1000x4096 : S1000x16x16x16.ShapeCasts S1000x4096
  transposes_S1000x4096_S4096x1000_1_0 : S1000x4096.Transposes [1, 0] S4096x1000
  dot_S4096x4096_S4096x1000_S4096x1000_1_0_0_1_n_n_wf : DotDims.WF S4096x4096 S4096x1000 S4096x1000 [1] [0] [0] [1] [] []

variable [Facts₀]

def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.RowDot.lean ====
/-
  The product of two matrices along their ROW axes, on the extended reals: entry (r, c) of `rowDot A W` is the sum over
  `k` of `A (r, k) · W (c, k)` — "A times the transpose of W", the transpose never materialized. Both programs compute
  this function of the two flattened arguments: one contracts axis 1 of both operands block of rows by block of rows, the
  other transposes `W` first and contracts axis 1 against axis 0.

  The one law between them is about rows of `W` that are not there: padding `W` below with 24 further rows (of any
  value whatever) adds 24 columns to the product and leaves the first 1000 as they were, since column `c` of the
  product reads row `c` of the padded matrix only, which for `c < 1000` is row `c` of `W`. Cutting the product back to
  its first 1000 columns therefore undoes the padding exactly; no arithmetic law of the extended reals is used, so
  nothing here asks the entries to be finite.
-/
import Idealize.ShloMosaic.PureOps.Ideal
import Idealize.ShloMosaic.Lib.ValueIdx
import Idealize.ShloMosaic.Lib.KernelVsHost
import Idealize.ShloMosaic.Lib.Pipeline.Value

noncomputable section

namespace Cert.RowDot

open Idealize.ShloMosaic Idealize.ShloMosaic.ValueIdx

/-- Entry (r, c) is the sum over `k` of `A (r, k) · W (c, k)`. -/
def rowDot {M N K : Nat} (A : (⟨2, ![M, K]⟩ : Shape).Idx → EReal) (W : (⟨2, ![N, K]⟩ : Shape).Idx → EReal) :
    (⟨2, ![M, N]⟩ : Shape).Idx → EReal :=
  fun i => ∑ k : Fin K, A (ix2 (i 0) k) * W (ix2 (i 1) k)

theorem rowDot_ix2 {M N K : Nat} (A : (⟨2, ![M, K]⟩ : Shape).Idx → EReal) (W : (⟨2, ![N, K]⟩ : Shape).Idx → EReal)
    (r : Fin M) (c : Fin N) : rowDot A W (ix2 r c) = ∑ k : Fin K, A (ix2 r k) * W (ix2 c k) := rfl

/-- The 4096 × 4096 left factor, the 1000 × 4096 right factor and the same padded below to 1024 rows; the
    4096 × 1024 product of the padded factor and its first 1000 columns. -/
abbrev SA : Shape := ⟨2, ![4096, 4096]⟩
abbrev SW : Shape := ⟨2, ![1000, 4096]⟩
abbrev SWp : Shape := ⟨2, ![1024, 4096]⟩
abbrev SOp : Shape := ⟨2, ![4096, 1024]⟩
abbrev SO : Shape := ⟨2, ![4096, 1000]⟩

/-- Each of the first 1000 rows of the padded factor is that row of `W`. -/
theorem pad_row (W : SW.Idx → EReal) {u : Shape} (z : u.Idx → EReal)
    (hp : SW.Pads (![0, 0] : Fin 2 → Nat) ![24, 0] ![0, 0] SWp) (hu : 0 < u.numel) (c : Fin 1000) (k : Fin 4096) :
    pad SWp ![0, 0] ![24, 0] ![0, 0] W z hp hu (ix2 ⟨c.val, by omega⟩ k) = W (ix2 c k) :=
  pad_apply_of_inside ![0, 0] ![24, 0] ![0, 0] W z hp hu (ix2 ⟨c.val, by omega⟩ k) (ix2 c k) fun a => by
    match a with
    | ⟨0, _⟩ => show c.val = 0 + c.val * (0 + 1); omega
    | ⟨1, _⟩ => show k.val = 0 + k.val * (0 + 1); omega

/-- The first 1000 columns of the product with the padded factor are the product with `W`. -/
theorem slice_rowDot_pad (A : SA.Idx → EReal) (W : SW.Idx → EReal) {u : Shape} (z : u.Idx → EReal)
    (hp : SW.Pads (![0, 0] : Fin 2 → Nat) ![24, 0] ![0, 0] SWp) (hu : 0 < u.numel) (hs : SOp.Slices ![0, 0] SO) :
    extractStridedSlice SO ![0, 0] (rowDot A (pad SWp ![0, 0] ![24, 0] ![0, 0] W z hp hu)) hs = rowDot A W := by
  funext i
  obtain ⟨r, c, rfl⟩ : ∃ (r : Fin 4096) (c : Fin 1000), i = ix2 r c := ⟨i 0, i 1, eq_ix2 i⟩
  refine (extractStridedSlice_apply ![0, 0] _ hs (ix2 r c) (ix2 r ⟨c.val, by omega⟩) fun a => ?_).trans ?_
  · match a with
    | ⟨0, _⟩ => show r.val = 0 + r.val; omega
    | ⟨1, _⟩ => show c.val = 0 + c.val; omega
  · rw [rowDot_ix2, rowDot_ix2]
    exact Finset.sum_congr rfl fun k _ => congrArg (A (ix2 r k) * ·) (pad_row W z hp hu c k)

end Cert.RowDot

end
-- ==== Proof.BlockProduct.lean ====
/-
  What the kernel body stores at one grid point, read entry by entry. The body loads a block of 512 rows of the left
  factor (512 × 4096) and the whole padded right factor (1024 × 4096), multiplies them on the matrix unit contracting
  axis 1 of BOTH operands into an accumulator of zeros, and stores the 512 × 1024 result. On the extended reals the
  matrix unit's product is the plain sum over the contracted axis and adding it to zero changes nothing, so the stored
  block is `rowDot` of the two loaded blocks: entry (r, c) is the sum over `k` of `x0 (r, k) · x1 (c, k)`.
  The two shape casts in the body are casts of a shape to itself.
-/
import proofs.«154614_j26757646254492_2_alg».proof.Proof.Gen.KernelIdeal.Skeleton
import proofs.«154614_j26757646254492_2_alg».proof.Proof.RowDot
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx Cert.RowDot

/-- The left operand's index at output entry `j` and contraction index `q`: row `j 0`, column `q`. -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_col (j : S512x1024.Idx) (q : dot_S512x4096_S1024x4096_S512x1024_1_1_0_0_n_n.contr.Idx) :
    (dot_S512x4096_S1024x4096_S512x1024_1_1_0_0_n_n.lhsIdx j q 1).val = (q ⟨0, by decide⟩).val :=
  dot_S512x4096_S1024x4096_S512x1024_1_1_0_0_n_n.lhsIdx_val_of_single rfl j q
/-- The right operand's: row `j 1` (the output's column), column `q` — axis 1 is contracted on this side too. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_col (j : S512x1024.Idx) (q : dot_S512x4096_S1024x4096_S512x1024_1_1_0_0_n_n.contr.Idx) :
    (dot_S512x4096_S1024x4096_S512x1024_1_1_0_0_n_n.rhsIdx j q 1).val = (q ⟨0, by decide⟩).val :=
  dot_S512x4096_S1024x4096_S512x1024_1_1_0_0_n_n.rhsIdx_val_of_single rfl j q

/-- The stored block is the row product of the two loaded blocks. -/
theorem payload_eq (x0 : Vec Ideal S512x4096 .f32) (x1 : Vec Ideal S1024x4096 .f32) :
    k0_pay1 (F := Ideal) x0 x1 = rowDot x0 x1 := by
  funext j
  unfold k0_pay1
  simp only [matmul, shapeCast_self]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx j ((contrEquiv1 dot_S512x4096_S1024x4096_S512x1024_1_1_0_0_n_n 4096 rfl rfl).symm k) = ix2 (j 0) k := funext fun a => Fin.ext (by
    match a with
    | ⟨0, _⟩ => exact lhs_row _ _
    | ⟨1, _⟩ => exact (lhs_col _ _).trans hk)
  have er : dot_S512x4096_S1024x4096_S512x1024_1_1_0_0_n_n.rhsIdx j ((contrEquiv1 dot_S512x4096_S1024x4096_S512x1024_1_1_0_0_n_n 4096 rfl rfl).symm k) = ix2 (j 1) k := funext fun a => Fin.ext (by
    match a with
    | ⟨0, _⟩ => exact rhs_row _ _
    | ⟨1, _⟩ => exact (rhs_col _ _).trans hk)
  rw [el, er]
  rfl

end Cert.KernelIdeal.BlockProduct

end
-- ==== Proof.RegionArray.lean ====
/-
  The array the region leaves, as one function of the two arrays it reads. The grid has 8 points; point `t` stages rows
  512·t … 512·t + 511 of the left factor (all 4096 columns), the whole padded right factor (the same block at every
  point), and writes back rows 512·t … 512·t + 511 of the 4096 × 1024 output (all 1024 columns). The body's stored
  block is the row product of the two staged blocks, so entry (r, c) of what point `t` writes is the sum over `k` of
  `A (512·t + r, k) · Wp (c, k)`: the block, at rows 512·t …, of the row product of the WHOLE arrays. The 8 row blocks
  tile the output (row `i` is in the block of point `i / 512`), so the array ends as that row product everywhere.
-/
import proofs.«154614_j26757646254492_2_alg».proof.Proof.Gen.KernelIdeal.Frame
import proofs.«154614_j26757646254492_2_alg».proof.Proof.BlockProduct
import Idealize.ShloMosaic.Lib.Pipeline.Value

noncomputable section

namespace Cert.KernelIdeal.RegionArray

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (m : (ℓ : Loc nD τ sig) → Buf (Elt Ideal) ℓ)

/-- The row product of the two arrays the region reads, as it finds them: the flattened left argument and the
    flattened, padded right one. -/
def product (c : Dev nD) : S4096x1024.Idx → EReal :=
  rowDot (V m c main_v0 : S4096x4096.Idx → EReal) (V m c main_v2 : S1024x4096.Idx → EReal)

theorem offsets_zero : (![0, 0] : Fin 2 → Nat) = fun _ => 0 := funext fun a => by fin_cases a <;> rfl

/-- The block indices over the grid: the left factor's row block moves with the output's, every other block index is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 8 row blocks of the output is some point's. -/
theorem index_onto : ∀ q : Fin 8, ∃ t : Fin cfg0.N, win0_2.index t = ![q.val, 0] :=
  (by decide +kernel : ∀ q : Fin 8, ∃ t : Fin grid0.N, win0_2.index t = ![q.val, 0])

/-- Entry `y` of the left factor's block at point `t` is the array's entry 512 · (the output's row block) rows further down. -/
theorem left_block (c : Dev nD) (t : Fin cfg0.N) (y : S512x4096.Idx) (i : S4096x4096.Idx)
    (h0 : (i 0).val = win0_2.index t (0 : Fin 2) * 512 + (y 0).val) (h1 : (i 1).val = (y 1).val) :
    iblk m c 0 t y = V m c main_v0 i := by
  obtain ⟨e0, e1, -⟩ := index_facts t
  show V m c main_v0 (((cfg0.win 0).blk t).view.emb y) = V m c main_v0 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The right factor's block is the whole array at every point. -/
theorem right_block (c : Dev nD) (t : Fin cfg0.N) (y : S1024x4096.Idx) (i : S1024x4096.Idx)
    (h0 : (i 0).val = (y 0).val) (h1 : (i 1).val = (y 1).val) :
    iblk m c 1 t y = V m c main_v2 i := by
  obtain ⟨-, -, e2, e3, -⟩ := index_facts t
  show V m c main_v2 (((cfg0.win 1).blk t).view.emb y) = V m c main_v2 i
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 4096 + 1 * (y 1).val = (i 1).val; omega

/-- The row product of the two staged blocks, at entry `j`, is the row product of the whole arrays at the entry
    512 · (the output's row block) rows further down. -/
theorem block_product (c : Dev nD) (t : Fin cfg0.N) (j : S512x1024.Idx) (i : S4096x1024.Idx)
    (h0 : (i 0).val = win0_2.index t (0 : Fin 2) * 512 + (j 0).val) (h1 : (i 1).val = (j 1).val) :
    rowDot (iblk m c 0 t) (iblk m c 1 t) j = product m c i := by
  unfold product rowDot
  refine Finset.sum_congr rfl fun k _ => ?_
  rw [left_block m c t (ix2 (j 0) k) (ix2 (i 0) k) h0 rfl, right_block m c t (ix2 (j 1) k) (ix2 (i 1) k) h1 rfl]

/-- What point `t` writes back is block `t` of the row product of the whole arrays. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero offsets_zero]
  simp only [View.ld_unit_zero (S := S512x4096) offsets_zero, View.ld_unit_zero (S := S1024x4096) offsets_zero]
  rw [BlockProduct.payload_eq]
  obtain ⟨-, -, -, -, e4⟩ := index_facts t
  funext j
  show rowDot (iblk m c 0 t) (iblk m c 1 t) j = product m c (((cfg0.win 2).blk t).view.emb j)
  refine block_product m c t j _ ?_ ?_
  · show win0_2.index t (0 : Fin 2) * 512 + 1 * (j 0).val = win0_2.index t (0 : Fin 2) * 512 + (j 0).val; omega
  · show win0_2.index t (1 : Fin 2) * 1024 + 1 * (j 1).val = (j 1).val; omega

/-- An entry of the output is in point `t`'s block iff each coordinate is in the block's range on its axis. -/
theorem mem_block (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- Row `i` of the output is in the block of the point whose row block is `i / 512`. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region is the row product of the two arrays the region read. -/
theorem region_array (c : Dev nD) : (dats m 0 c).arrAt 2 cfg0.N = product m c :=
  (dats m 0 c).arrAt_eq_of_cover 2 (product m c) (fun t _ => flushed_eq m c t) (covered)

end Cert.KernelIdeal.RegionArray

end
-- ==== Proof.KernelRun.lean ====
/-
  The kernel program's run, read as a value. Before the region the program flattens both arguments (4096 × 16 × 16 × 16
  to 4096 × 4096, 1000 × 16 × 16 × 16 to 1000 × 4096) and pads the second with 24 further rows; the region leaves the
  4096 × 1024 row product of those two arrays; after the region the program keeps the first 1000 columns. Cutting the
  product with the padded factor back to 1000 columns is the product with the unpadded one (the padding rows only ever
  feed the columns cut away, so their value does not matter), hence the result is the row product of the two flattened
  arguments: entry (r, c) is the sum over `k` of `core (r, k) · weights (c, k)`, `k` running over the 4096 flattened modes.
-/
import proofs.«154614_j26757646254492_2_alg».proof.Proof.Gen.KernelIdeal.Frame
import proofs.«154614_j26757646254492_2_alg».proof.Proof.RegionArray
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.StableHlo Cert.RowDot Cert.KernelIdeal.RegionArray
open Idealize.ShloMosaic.Pipeline (Dat)

variable (m : (ℓ : Loc nD τ sig) → Buf (Elt Ideal) ℓ)

/-- The left array the region reads is the first argument flattened. -/
theorem left_factor (c : Dev nD) : (V m c main_v0 : S4096x4096.Idx → EReal)
    = shapeCast S4096x4096 (m ((c : Thread nD τ).loc main_arg0)) shapeCasts_S4096x16x16x16_S4096x4096 := by
  dsimp only [V, V0]
  simp only [hostOps0, hostOps0_1, List.flatten_cons, List.flatten_nil, List.append_nil, List.cons_append, List.nil_append]
  after_results
  rfl

/-- The right array the region reads is the second argument flattened and padded below with 24 rows of some value. -/
theorem right_factor (c : Dev nD) : ∃ z : S_.Idx → EReal, (V m c main_v2 : S1024x4096.Idx → EReal)
    = pad S1024x4096 ![0, 0] ![24, 0] ![0, 0]
        (shapeCast S1000x4096 (m ((c : Thread nD τ).loc main_arg1)) shapeCasts_S1000x16x16x16_S1000x4096) z
        pads_S1000x4096_S1024x4096_0240_000 h_S_ := by
  refine ⟨sitofp (F := Ideal) .f32 (constantI S_ 32 0#32), ?_⟩
  dsimp only [V, V0]
  simp only [hostOps0, hostOps0_1, List.flatten_cons, List.flatten_nil, List.append_nil, List.cons_append, List.nil_append]
  after_results
  rfl

/-- The program's result: the first 1000 columns of what the region left, which is the row product of the two
    flattened arguments. -/
theorem result_value (c : Dev nD) :
    (Pipeline.afterTail₀ cfgs (dats m) 0 (V0 m) [hostOps1] c main_v4 : S4096x1000.Idx → EReal)
      = rowDot (shapeCast S4096x4096 (m ((c : Thread nD τ).loc main_arg0)) shapeCasts_S4096x16x16x16_S4096x4096)
          (shapeCast S1000x4096 (m ((c : Thread nD τ).loc main_arg1)) shapeCasts_S1000x16x16x16_S1000x4096) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = product m c :=
    (Pipeline.withArrays_arr spec0 launch0.win.arr_inj c _ _ 2).trans (region_array m c)
  obtain ⟨z, hz⟩ := right_factor m c
  rw [e]
  unfold product
  rw [left_factor m c, hz]
  exact slice_rowDot_pad _ _ z pads_S1000x4096_S1024x4096_0240_000 h_S_ slices_S4096x1024_S4096x1000_0_0

/-- Every weakly fair execution of the kernel program terminates with its result at the row product of the two
    flattened arguments and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v4)
        = rowDot (shapeCast S4096x4096 (m ((c : Thread nD τ).loc main_arg0)) shapeCasts_S4096x16x16x16_S4096x4096)
            (shapeCast S1000x4096 (m ((c : Thread nD τ).loc main_arg1)) shapeCasts_S1000x16x16x16_S1000x4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.ReferenceValue.lean ====
/-
  The reference's result, read as a value. The reference flattens both arguments, transposes the second (1000 × 4096 to
  4096 × 1000) and contracts axis 1 of the first against axis 0 of the transposed second. Entry (r, c) is therefore the
  sum over `k` of `A (r, k) · Wᵀ (k, c)`, and `Wᵀ (k, c)` is `W (c, k)`: the row product of the two flattened arguments.
-/
import proofs.«154614_j26757646254492_2_alg».proof.Proof.Gen.ReferenceIdeal.Read
import proofs.«154614_j26757646254492_2_alg».proof.Proof.RowDot

noncomputable section

namespace Cert.ReferenceIdeal.RefValue

open Cert.ReferenceIdeal Cert.ReferenceIdeal.Gen Cert.ReferenceIdeal.Read
open Idealize.ShloMosaic Idealize.ShloMosaic.ValueIdx Cert.RowDot

/-- The reference's result is the row product of its two flattened arguments. -/
theorem result_eq (x0 : (⟨S4096x16x16x16, .f32⟩ : BufTy).Contents (Elt Ideal)) (x1 : (⟨S1000x16x16x16, .f32⟩ : BufTy).Contents (Elt Ideal)) :
    val_main_v3 (F := Ideal) x0 x1
      = rowDot (shapeCast S4096x4096 x0 shapeCasts_S4096x16x16x16_S4096x4096 : S4096x4096.Idx → EReal)
          (shapeCast S1000x4096 x1 shapeCasts_S1000x16x16x16_S1000x4096 : S1000x4096.Idx → EReal) := by
  funext i
  rw [val_main_v3_apply]
  refine Finset.sum_congr rfl fun k _ => ?_
  rw [val_main_v2_apply]
  have el : lidx_main_v3 i k = ix2 (i 0) k := funext fun a => Fin.ext (by
    match a with
    | ⟨0, _⟩ => rfl
    | ⟨1, _⟩ => rfl)
  have er : idx_main_v2 (ridx_main_v3 i k) = ix2 (i 1) k := funext fun a => Fin.ext (by
    match a with
    | ⟨0, _⟩ => rfl
    | ⟨1, _⟩ => rfl)
  rw [el, er]
  rfl

end Cert.ReferenceIdeal.RefValue

end
-- ==== Proof.lean ====
/-
  A dense output layer: for 4096 samples and 1000 classes, the inner product of each sample's 16 × 16 × 16 core tensor
  with each class's 16 × 16 × 16 weight tensor over all 4096 modes. With both arguments flattened to matrices
  `A` (4096 × 4096) and `W` (1000 × 4096), entry (r, c) of the result is the sum over `k` of `A (r, k) · W (c, k)` — the
  row product of `A` and `W` (Proof/RowDot.lean).

  The reference transposes `W` and multiplies once (Proof/ReferenceValue.lean). The kernel program pads `W` with 24 rows
  to 1024, multiplies 512 rows of `A` at a time against the whole padded factor on the matrix unit (contracting axis 1
  of both operands, into a zero accumulator: Proof/BlockProduct.lean), the 8 row blocks tiling the 4096 × 1024 product
  (Proof/RegionArray.lean), and cuts the product back to its first 1000 columns (Proof/KernelRun.lean). On the extended
  reals both are the same sums of the same products, term by term: the padding rows feed only the columns that are cut
  away, a sum added to zero is itself, and neither a different tiling nor a transposed operand changes which products are
  summed. No law that could fail at an infinity is used, so the finiteness of the inputs is never called on.

  The ideal pass rewrote nothing in the kernel, so that it is the kernel's sanctioned idealization is the trivial
  proposition. The three frames are the generated ones, the reference's being its run with the result dropped.
-/
import proofs.«154614_j26757646254492_2_alg».proof.Defs
import proofs.«154614_j26757646254492_2_alg».proof.Proof.Gen.Kernel
import proofs.«154614_j26757646254492_2_alg».proof.Proof.Gen.Kernel.Frame
import proofs.«154614_j26757646254492_2_alg».proof.Proof.Gen.KernelIdeal
import proofs.«154614_j26757646254492_2_alg».proof.Proof.Gen.KernelIdeal.Frame
import proofs.«154614_j26757646254492_2_alg».proof.Proof.Gen.ReferenceIdeal
import proofs.«154614_j26757646254492_2_alg».proof.Proof.Gen.ReferenceIdeal.Run
import proofs.«154614_j26757646254492_2_alg».proof.Proof.Gen.ReferenceIdeal.Read
import proofs.«154614_j26757646254492_2_alg».proof.Proof.Gen.Pre_finite_inputs
import proofs.«154614_j26757646254492_2_alg».proof.Proof.KernelRun
import proofs.«154614_j26757646254492_2_alg».proof.Proof.ReferenceValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments, both programs end with the row product of the flattened arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
